-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 36
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S100000x128, .bf16⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .bf16⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S1x128, .f32⟩
  | .hbm, ⟨35, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.SageHost.lean ====
/-
  The arrays the combine kernel is launched on, as the program's host operations leave them.

  Before the kernel runs the program computes, with host operations: each node's in-degree (a one scattered onto the
  destination of every edge), clamped below by one; the reciprocal of that, laid out as a column; the neighbour sums
  (the source row of every edge, gathered from the features after a change of float format and back, scatter-added
  onto the destination row); and the bias laid out as a row. The kernel's windows 1, 2 and 5 stage these three arrays.
-/
import proofs.«170591_j7181185319698_2_alg».proof.Proof.Gen.KernelIdeal.Frame
import Idealize.ShloMosaic.Lib.StableHlo.Run
import Idealize.ShloMosaic.PureOps.Ideal

noncomputable section

namespace Cert.Sage.Kernel

open Cert.KernelIdeal Cert.KernelIdeal.Gen Idealize.ShloMosaic Idealize.ShloMosaic.TcCoe Idealize.SL.Sem
open Idealize.ShloMosaic.StableHlo

/-- Each node's in-degree (ones scattered onto the edges' destinations, added into zeros), clamped below by one. -/
def dmax (dst : IVec S1600000 32) : FVec Ideal S100000 .f32 :=
  maximumf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The reciprocal of the clamped in-degree: one divided by it, node by node. -/
def recip (dst : IVec S1600000 32) : FVec Ideal S100000 .f32 :=
  Host.divf (broadcastInDim S100000 ![] bcast_S_S100000 (constant (F := Ideal) S_ .f32 0x3F800000#32)) (dmax dst)

/-- The neighbour sums: the feature row of every edge's source (a negative source index counted from the end),
    added onto the row of the edge's destination. The features pass through a narrower float format and back on the
    way, which changes nothing at the extended reals. -/
def agg (x : FVec Ideal S100000x128 .f32) (src dst : IVec S1600000 32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (extf .f32 (Host.gather gather_S100000x128_S1600000x1_S1600000x128_1_0_n_n_0_1_1128 (truncf .bf16 x bitsLt_bf16_f32)
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src))) bitsLt_bf16_f32)

variable (m : (ℓ : Loc nD τ sig) → Buf (Elt Ideal) ℓ)

set_option maxHeartbeats 2000000 in
/-- Window 1's array, as the region finds it, is the neighbour sums of the argument arrays. -/
theorem V_agg (c : Dev nD) :
    (V m c main_v15 : S100000x128.Idx → EReal)
      = agg (m ((c.tc : Thread nD τ).loc main_arg0)) (m ((c.tc : Thread nD τ).loc main_arg4)) (m ((c.tc : Thread nD τ).loc main_arg5)) := by
  dsimp only [Gen.V, Gen.hostOps0]
  after_results_simp
  rfl

set_option maxHeartbeats 2000000 in
/-- Window 2's array, as the region finds it, is the reciprocal clamped degrees laid out as a column. -/
theorem V_recip (c : Dev nD) :
    (V m c main_v20 : S100000x1.Idx → EReal)
      = shapeCast S100000x1 (recip (m ((c.tc : Thread nD τ).loc main_arg5))) shapeCasts_S100000_S100000x1 := by
  dsimp only [Gen.V, Gen.hostOps0]
  after_results_simp
  rfl

set_option maxHeartbeats 2000000 in
/-- Window 5's array, as the region finds it, is the bias laid out as a row. -/
theorem V_bias (c : Dev nD) :
    (V m c main_v21 : S1x128.Idx → EReal)
      = shapeCast S1x128 (m ((c.tc : Thread nD τ).loc main_arg3)) shapeCasts_S128_S1x128 := by
  dsimp only [Gen.V, Gen.hostOps0]
  after_results_simp
  rfl

end Cert.Sage.Kernel

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.SageBody.lean ====
/-
  What the combine kernel's body stores, entry by entry, at the extended reals.

  The body loads a block of 5000 node rows `x`, the matching block of neighbour sums `a`, the matching column block
  of reciprocal degrees `r`, the two weight matrices `ws`, `wn` and the bias row `b`, and stores

      max ( x · ws  +  (a · wn) ∘ r  +  b , 0 ).

  Read at row `p` and lane `q`: both matrix products are accumulated into zero, so each is the plain sum over the 128
  contracted positions; the changes of float format in front of them are the identity; the column `r` is repeated
  along the lanes and the row `b` along the rows.
-/
import proofs.«170591_j7181185319698_2_alg».proof.Proof.Gen.KernelIdeal.Skeleton
import proofs.«170591_j7181185319698_2_alg».proof.Proof.LibMatmulNN
import proofs.«170591_j7181185319698_2_alg».proof.Proof.LibColumnLayout
import Idealize.ShloMosaic.Lib.ValueIdx
import Idealize.ShloMosaic.Lib.ValueLayout
import Idealize.ShloMosaic.Lib.Pipeline.Value

noncomputable section

open scoped BigOperators

namespace Cert.Sage.Body

open Cert.KernelIdeal Cert.KernelIdeal.Gen Idealize.ShloMosaic Idealize.ShloMosaic.ValueIdx

/-- Entry `(p, q)` of the stored block: `max (∑ₖ x[p,k]·ws[k,q] + (∑ₖ a[p,k]·wn[k,q]) · r[p,0] + b[0,q], 0)`. -/
theorem stored_apply (x a : Vec Ideal S5000x128 .f32) (ws wn : Vec Ideal S128x128 .f32) (r : Vec Ideal S5000x1 .f32)
    (b : Vec Ideal S1x128 .f32) (p : Fin 5000) (q : Fin 128) :
    k0_pay1 (F := Ideal) x a ws wn r b (ix2 p q)
      = max ((∑ k : Fin 128, x (ix2 p k) * ws (ix2 k q)) + (∑ k : Fin 128, a (ix2 p k) * wn (ix2 k q)) * r (ix2 p (0 : Fin 1))
          + b (ix2 (0 : Fin 1) q)) (Ideal.ofBits .f32 0x00000000#32) := by
  have e1 := LibMatmulNN.matmul_zero_apply 5000 128 128 none (truncf .bf16 x bitsLt_bf16_f32) (truncf .bf16 ws bitsLt_bf16_f32) p q
  have e2 := LibMatmulNN.matmul_zero_apply 5000 128 128 none
    (truncf .bf16 (shapeCast S5000x128 a shapeCasts_S5000x128_S5000x128) bitsLt_bf16_f32) (truncf .bf16 wn bitsLt_bf16_f32) p q
  have e3 := broadcastTo_a1_ab_apply (shapeCast S5000x1 r shapeCasts_S5000x1_S5000x1) broadcasts_S5000x1_S5000x128 p q
  have e4 := broadcastTo_1b_ab_apply (shapeCast S1x128 b shapeCasts_S1x128_S1x128) broadcasts_S1x128_S5000x128 p q
  rw [shapeCast_self] at e2 e3 e4
  unfold k0_pay1
  simp only [shapeCast_self]
  exact congrArg₂ max (congrArg₂ (· + ·) (congrArg₂ (· + ·) e1 (congrArg₂ (· * ·) e2 e3)) e4) rfl

end Cert.Sage.Body

end
-- ==== Proof.SageSpec.lean ====
/-
  The mean-aggregating graph layer as ONE function of its arrays, entry by entry, on the extended reals.

  For node features `x` (100000 × 128), weights `ws`, `wn` (128 × 128), a bias `b` (128), the array `A` of neighbour sums
  (100000 × 128: row `v` is the sum of the feature rows of the sources of the edges into `v`) and the array `dmax`
  (100000: the in-degree of `v`, or one where it is zero), the layer's entry at node `v` and feature `q` is

      max ( ∑ₖ x[v,k] · ws[k,q]  +  (∑ₖ A[v,k] · wn[k,q]) · (1 / dmax[v])  +  b[q] ,  0 ).

  The reciprocal is spelt as the program spells it: the quotient of the float pattern of `1.0` by `dmax[v]`; the
  zero under the maximum is the float pattern of `0.0`.
-/
import Idealize.ShloMosaic.PureOps.Ideal
import Idealize.ShloMosaic.Lib.ValueIdx

noncomputable section

open scoped BigOperators

namespace Cert.Sage

open Idealize.ShloMosaic Idealize.ShloMosaic.ValueIdx

/-- The layer's output array from the feature, weight and bias arrays, the neighbour sums and the clamped degrees. -/
def layer (x : (⟨2, ![100000, 128]⟩ : Shape).Idx → EReal) (ws wn : (⟨2, ![128, 128]⟩ : Shape).Idx → EReal)
    (b : (⟨1, ![128]⟩ : Shape).Idx → EReal) (A : (⟨2, ![100000, 128]⟩ : Shape).Idx → EReal)
    (dmax : (⟨1, ![100000]⟩ : Shape).Idx → EReal) : (⟨2, ![100000, 128]⟩ : Shape).Idx → EReal :=
  fun i => max ((∑ k : Fin 128, x (ix2 (i 0) k) * ws (ix2 k (i 1)))
      + (∑ k : Fin 128, A (ix2 (i 0) k) * wn (ix2 k (i 1))) * Ideal.div (Ideal.ofBits .f32 0x3F800000#32) (dmax (ix1 (i 0)))
      + b (ix1 (i 1))) (Ideal.ofBits .f32 0x00000000#32)

/-- The layer's entry at row `v`, lane `q`. -/
theorem layer_apply (x : (⟨2, ![100000, 128]⟩ : Shape).Idx → EReal) (ws wn : (⟨2, ![128, 128]⟩ : Shape).Idx → EReal)
    (b : (⟨1, ![128]⟩ : Shape).Idx → EReal) (A : (⟨2, ![100000, 128]⟩ : Shape).Idx → EReal)
    (dmax : (⟨1, ![100000]⟩ : Shape).Idx → EReal) (v : Fin 100000) (q : Fin 128) :
    layer x ws wn b A dmax (ix2 v q) = max ((∑ k : Fin 128, x (ix2 v k) * ws (ix2 k q))
      + (∑ k : Fin 128, A (ix2 v k) * wn (ix2 k q)) * Ideal.div (Ideal.ofBits .f32 0x3F800000#32) (dmax (ix1 v))
      + b (ix1 q)) (Ideal.ofBits .f32 0x00000000#32) := rfl

end Cert.Sage

end
-- ==== Proof.LibVecToColumn.lean ====
/-
  A reshape keeps the row-major position of every element: a vector of length `n` and the column `[n, 1]` it is
  reshaped to hold element `r` at positions `r` and `r · 1 + 0`.
-/
import Idealize.ShloMosaic.Lib.Pipeline.Value
import Idealize.ShloMosaic.Lib.ValueIdx

noncomputable section

namespace LibVecToColumn

open Idealize.ShloMosaic Idealize.ShloMosaic.ValueIdx

/-- A vector of length `n` laid out as a column `[n, 1]` reads, at `(r, 0)`, the vector at `r`. -/
theorem vec_to_col_apply {α : Type} {n : Nat} (x : (⟨1, ![n]⟩ : Shape).Idx → α)
    (h : (⟨1, ![n]⟩ : Shape).ShapeCasts ⟨2, ![n, 1]⟩) (r : Fin n) :
    shapeCast ⟨2, ![n, 1]⟩ x h (ix2 r (0 : Fin 1)) = x (ix1 r) :=
  shapeCast_apply x h _ _ (by
    rw [Shape.rowMajor_val_one, Shape.rowMajor_val_two]
    show r.val = r.val * 1 + 0
    rw [Nat.mul_one, Nat.add_zero])

end LibVecToColumn

end
-- ==== Proof.SageKernel.lean ====
/-
  The combine kernel's output array is the layer.

  The kernel runs on a grid of 20 points; point `t` stages rows `5000·t … 5000·t + 4999` of the features, of the
  neighbour sums and of the reciprocal-degree column, the two whole weight matrices and the bias row, and writes
  back rows `5000·t … 5000·t + 4999` of the output. Entry `(p, q)` of what it writes back is the body's stored value
  at `(p, q)`, which reads row `p` of the staged blocks — row `5000·t + p` of the arrays — so it is the layer's entry at
  `(5000·t + p, q)`. The 20 blocks cover the output array (row `v` lies in block `v / 5000`), so the array ends holding
  the layer.
-/
import proofs.«170591_j7181185319698_2_alg».proof.Proof.Gen.KernelIdeal.Value
import proofs.«170591_j7181185319698_2_alg».proof.Proof.SageHost
import proofs.«170591_j7181185319698_2_alg».proof.Proof.SageBody
import proofs.«170591_j7181185319698_2_alg».proof.Proof.SageSpec
import proofs.«170591_j7181185319698_2_alg».proof.Proof.LibVecToColumn
import Idealize.ShloMosaic.Lib.ValueLayout
import Idealize.ShloMosaic.Lib.ValueIdx

noncomputable section

open scoped BigOperators

namespace Cert.Sage.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 20 grid points: the three row-blocked inputs and the output are at block
    `(t, 0)`, the two weight matrices and the bias row at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Where a block's entry sits in its array -/

/-- Entry `(p, k)` of the feature block at point `t` is entry `(5000·t + p, k)` of the feature array. -/
theorem read_x (c : Dev nD) (t : Fin cfg0.N) (X : S100000x128.Idx → EReal) (p : Fin 5000) (k : Fin 128) (r : Fin 100000)
    (hr : r.val = t.val * 5000 + p.val) :
    (((cfg0.win 0).blk t).view.read (Elt Ideal) X : S5000x128.Idx → EReal) (ix2 p k) = X (ix2 r k) := by
  obtain ⟨e0, e1, -⟩ := idx_facts t
  rw [View.read_apply]
  refine congrArg X (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Entry `(p, k)` of the neighbour-sum block at point `t` is entry `(5000·t + p, k)` of the neighbour sums. -/
theorem read_a (c : Dev nD) (t : Fin cfg0.N) (X : S100000x128.Idx → EReal) (p : Fin 5000) (k : Fin 128) (r : Fin 100000)
    (hr : r.val = t.val * 5000 + p.val) :
    (((cfg0.win 1).blk t).view.read (Elt Ideal) X : S5000x128.Idx → EReal) (ix2 p k) = X (ix2 r k) := by
  obtain ⟨-, -, e0, e1, -⟩ := idx_facts t
  rw [View.read_apply]
  refine congrArg X (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Entry `(p, 0)` of the reciprocal-degree block at point `t` is entry `(5000·t + p, 0)` of the column. -/
theorem read_r (c : Dev nD) (t : Fin cfg0.N) (X : S100000x1.Idx → EReal) (p : Fin 5000) (r : Fin 100000)
    (hr : r.val = t.val * 5000 + p.val) :
    (((cfg0.win 2).blk t).view.read (Elt Ideal) X : S5000x1.Idx → EReal) (ix2 p (0 : Fin 1)) = X (ix2 r (0 : Fin 1)) := by
  obtain ⟨-, -, -, -, e0, e1, -⟩ := idx_facts t
  rw [View.read_apply]
  refine congrArg X (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- The block of the first weight matrix is the whole matrix, at every point. -/
theorem read_ws (c : Dev nD) (t : Fin cfg0.N) (X : S128x128.Idx → EReal) (k q : Fin 128) :
    (((cfg0.win 3).blk t).view.read (Elt Ideal) X : S128x128.Idx → EReal) (ix2 k q) = X (ix2 k q) := by
  obtain ⟨-, -, -, -, -, -, e0, e1, -⟩ := idx_facts t
  rw [View.read_apply]
  refine congrArg X (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The block of the second weight matrix is the whole matrix, at every point. -/
theorem read_wn (c : Dev nD) (t : Fin cfg0.N) (X : S128x128.Idx → EReal) (k q : Fin 128) :
    (((cfg0.win 4).blk t).view.read (Elt Ideal) X : S128x128.Idx → EReal) (ix2 k q) = X (ix2 k q) := by
  obtain ⟨-, -, -, -, -, -, -, -, e0, e1, -⟩ := idx_facts t
  rw [View.read_apply]
  refine congrArg X (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The block of the bias row is the whole row, at every point. -/
theorem read_b (c : Dev nD) (t : Fin cfg0.N) (X : S1x128.Idx → EReal) (q : Fin 128) :
    (((cfg0.win 5).blk t).view.read (Elt Ideal) X : S1x128.Idx → EReal) (ix2 (0 : Fin 1) q) = X (ix2 (0 : Fin 1) q) := by
  obtain ⟨-, -, -, -, -, -, -, -, -, -, e0, e1, -⟩ := idx_facts t
  rw [View.read_apply]
  refine congrArg X (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- Entry `(p, q)` of the output block at point `t` sits at `(5000·t + p, q)` of the output array. -/
theorem emb_out (t : Fin cfg0.N) (p : Fin 5000) (q : Fin 128) (r : Fin 100000) (hr : r.val = t.val * 5000 + p.val) :
    (((cfg0.win 6).blk t).view.emb (ix2 p q) : S100000x128.Idx) = ix2 r q := by
  obtain ⟨-, -, -, -, -, -, -, -, -, -, -, -, e0, e1⟩ := idx_facts t
  refine funext fun a => Fin.ext ?_
  match a with
  | ⟨0, _⟩ => show win0_6.index t (0 : Fin 2) * 5000 + 1 * p.val = r.val; rw [e0, hr]; omega
  | ⟨1, _⟩ => show win0_6.index t (1 : Fin 2) * 128 + 1 * q.val = q.val; rw [e1]; omega

/-! ## The staged blocks, over the arrays the host operations computed -/

theorem iblk_a (c : Dev nD) (t : Fin cfg0.N) :
    iblk m c 1 t = ((cfg0.win 1).blk t).view.read (Elt Ideal)
      (agg (m ((c.tc : Thread nD τ).loc main_arg0)) (m ((c.tc : Thread nD τ).loc main_arg4)) (m ((c.tc : Thread nD τ).loc main_arg5))) :=
  congrArg (((cfg0.win 1).blk t).view.read (Elt Ideal)) (V_agg m c)

theorem iblk_r (c : Dev nD) (t : Fin cfg0.N) :
    iblk m c 2 t = ((cfg0.win 2).blk t).view.read (Elt Ideal)
      (shapeCast S100000x1 (recip (m ((c.tc : Thread nD τ).loc main_arg5))) shapeCasts_S100000_S100000x1) :=
  congrArg (((cfg0.win 2).blk t).view.read (Elt Ideal)) (V_recip m c)

theorem iblk_b (c : Dev nD) (t : Fin cfg0.N) :
    iblk m c 5 t = ((cfg0.win 5).blk t).view.read (Elt Ideal)
      (shapeCast S1x128 (m ((c.tc : Thread nD τ).loc main_arg3)) shapeCasts_S128_S1x128) :=
  congrArg (((cfg0.win 5).blk t).view.read (Elt Ideal)) (V_bias m c)

theorem iblk_x (c : Dev nD) (t : Fin cfg0.N) :
    iblk m c 0 t = ((cfg0.win 0).blk t).view.read (Elt Ideal) (m ((c.tc : Thread nD τ).loc main_arg0)) :=
  congrArg (((cfg0.win 0).blk t).view.read (Elt Ideal)) (V_main_arg0 m c)

theorem iblk_ws (c : Dev nD) (t : Fin cfg0.N) :
    iblk m c 3 t = ((cfg0.win 3).blk t).view.read (Elt Ideal) (m ((c.tc : Thread nD τ).loc main_arg1)) :=
  congrArg (((cfg0.win 3).blk t).view.read (Elt Ideal)) (V_main_arg1 m c)

theorem iblk_wn (c : Dev nD) (t : Fin cfg0.N) :
    iblk m c 4 t = ((cfg0.win 4).blk t).view.read (Elt Ideal) (m ((c.tc : Thread nD τ).loc main_arg2)) :=
  congrArg (((cfg0.win 4).blk t).view.read (Elt Ideal)) (V_main_arg2 m c)

/-! ## The reciprocal, read at an index -/

/-- The host's quotient of a broadcast scalar constant by an array, read at an index. -/
theorem hostDivf_const_apply {s : Shape} (h : S_.BroadcastsInDim s ![]) (b : BitVec 32) (y : FVec Ideal s .f32) (i : s.Idx) :
    Host.divf (broadcastInDim s ![] h (constant (F := Ideal) S_ .f32 b)) y i = Ideal.div (Ideal.ofBits .f32 b) (y i) := rfl

/-- The reciprocal clamped degree of node `r` is one divided by the clamped degree of node `r`. -/
theorem recip_apply (dst : IVec S1600000 32) (i : S100000.Idx) :
    recip dst i = Ideal.div (Ideal.ofBits .f32 0x3F800000#32) (dmax dst i) :=
  hostDivf_const_apply bcast_S_S100000 0x3F800000#32 (dmax dst) i

/-! ## The output array -/

/-- The layer of the argument arrays, over the neighbour sums and the clamped degrees the host operations compute. -/
def result (c : Dev nD) : S100000x128.Idx → EReal :=
  layer (m ((c.tc : Thread nD τ).loc main_arg0)) (m ((c.tc : Thread nD τ).loc main_arg1)) (m ((c.tc : Thread nD τ).loc main_arg2))
    (m ((c.tc : Thread nD τ).loc main_arg3))
    (agg (m ((c.tc : Thread nD τ).loc main_arg0)) (m ((c.tc : Thread nD τ).loc main_arg4)) (m ((c.tc : Thread nD τ).loc main_arg5)))
    (dmax (m ((c.tc : Thread nD τ).loc main_arg5)))

/-- WHAT POINT `t` WRITES BACK is block `t` of the layer. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S5000x128) hz, View.ld_unit_zero (S := S128x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 j⟩
  have hlt : t.val * 5000 + p.val < 100000 := by
    have h1 : t.val < 20 := lt_of_lt_of_eq t.isLt N_0
    have h2 := p.isLt
    omega
  obtain ⟨r, hr⟩ : ∃ r : Fin 100000, r.val = t.val * 5000 + p.val := ⟨⟨_, hlt⟩, rfl⟩
  rw [View.read_apply, emb_out t p q r hr]
  show k0_pay1 (F := Ideal) (iblk m c 0 t) (iblk m c 1 t) (iblk m c 3 t) (iblk m c 4 t) (iblk m c 2 t) (iblk m c 5 t) (ix2 p q) = result m c (ix2 r q)
  refine (Body.stored_apply (iblk m c 0 t) (iblk m c 1 t) (iblk m c 3 t) (iblk m c 4 t) (iblk m c 2 t) (iblk m c 5 t) p q).trans ?_
  unfold result
  rw [layer_apply, iblk_x, iblk_a, iblk_r, iblk_b, iblk_ws, iblk_wn]
  refine congrArg₂ max (congrArg₂ (· + ·) (congrArg₂ (· + ·) (Finset.sum_congr rfl fun k _ => ?_)
    (congrArg₂ (· * ·) (Finset.sum_congr rfl fun k _ => ?_) ?_)) ?_) rfl
  · rw [read_x c t _ p k r hr, read_ws c t _ k q]
  · rw [read_a c t _ p k r hr, read_wn c t _ k q]
  · rw [read_r c t _ p r hr, LibVecToColumn.vec_to_col_apply, recip_apply]
  · rw [read_b c t _ q]
    exact shapeCast_a_1a_apply _ shapeCasts_S128_S1x128 (0 : Fin 1) q

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v22).slice (win0_6.rect t)).set ↔ _
  rw [View.set_slice_whole, Rect.mem_set_unit]
  exact Iff.rfl

/-- Every index of the output array is in some point's block: row `v` lies in block `v / 5000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, lt_of_lt_of_eq (show (i 0).val / 5000 < 20 by omega) N_0.symm⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 128 ≤ (i 1).val ∧ (i 1).val < win0_6.index t (1 : Fin 2) * 128 + 128
    rw [e1]; omega

/-- THE OUTPUT ARRAY after the run is the layer. -/
theorem final (c : Dev nD) : (dats m 0 c).arrAt 6 cfg0.N = result m c :=
  (dats m 0 c).arrAt_eq_of_cover 6 (result m c) (fun t _ => flushed_eq m c t) cover

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Sage.Kernel

end
-- ==== Proof.LibMeanAlgebra.lean ====
/-
  The algebra of a mean-aggregating graph layer on the extended reals.

  Three facts, none about any program:
  * a finite sum of nonnegative reals, taken in the extended reals, is a nonnegative real — so a node's in-degree,
    counted by adding a one for every incoming edge, is a nonnegative real, and its maximum with one is a positive real;
  * dividing every entry of a row by a positive real `y` BEFORE contracting the row with a column gives the
    contraction multiplied by `1 / y` AFTER: `∑ₖ (aₖ / y) · wₖ = (∑ₖ aₖ · wₖ) · (1 / y)`. On the extended reals this
    needs no finiteness of `a` or `w`: the reciprocal of a positive real is a nonnegative real different from `⊤`, and
    multiplication by such a factor distributes over every sum of extended reals, infinite terms included;
  * the float pattern of `1.0` denotes the real one.
-/
import Idealize.ShloMosaic.PureOps.Ideal.Laws

noncomputable section

open scoped BigOperators

namespace LibMeanAlgebra

open Idealize.ShloMosaic

/-- The pattern of `1.0` denotes one. -/
theorem ofBits_one : Ideal.ofBits .f32 0x3F800000#32 = 1 := by
  simp [Ideal.ofBits, Ideal.ieee, -EReal.coe_mul]; norm_num

/-- A finite sum of nonnegative reals, taken in the extended reals, is a nonnegative real. -/
theorem sum_real_nonneg {ι : Type} (s : Finset ι) (f : ι → EReal)
    (hf : ∀ j ∈ s, ∃ r : ℝ, 0 ≤ r ∧ f j = (r : EReal)) :
    ∃ r : ℝ, 0 ≤ r ∧ ∑ j ∈ s, f j = (r : EReal) := by
  classical
  induction s using Finset.induction_on with
  | empty => exact ⟨0, le_refl 0, by simp⟩
  | insert a s ha ih =>
    obtain ⟨r, hr, e⟩ := hf a (Finset.mem_insert_self a s)
    obtain ⟨r', hr', e'⟩ := ih (fun j hj => hf j (Finset.mem_insert_of_mem hj))
    exact ⟨r + r', add_nonneg hr hr', by rw [Finset.sum_insert ha, e, e', EReal.coe_add]⟩

/-- COUNTING BY SCATTER: adding a one into a zero array for every update that lands on an element leaves, at every
    element, a nonnegative real (the number of updates that landed there). -/
theorem scatter_ones_real {s si su : Shape} (d : ScatterDims s si su) {w : Nat} (x : s.Idx → EReal) (idx : IVec si w)
    (upd : su.Idx → EReal) (i : s.Idx) (hx : x i = 0) (hu : ∀ j, upd j = 1) :
    ∃ r : ℝ, 0 ≤ r ∧ Ideal.hostScatterAdd d x idx upd i = (r : EReal) := by
  obtain ⟨r, hr, e⟩ := sum_real_nonneg (Finset.univ.filter fun j => d.resultIdx? j idx = some i) upd
    (fun j _ => ⟨1, zero_le_one, by rw [hu j, EReal.coe_one]⟩)
  exact ⟨r, hr, by unfold Ideal.hostScatterAdd; rw [hx, zero_add, e]⟩

/-- The maximum of a nonnegative real with one is a positive real. -/
theorem max_one_pos {z one : EReal} (hone : one = 1) (hz : ∃ r : ℝ, 0 ≤ r ∧ z = (r : EReal)) :
    ∃ y : ℝ, 0 < y ∧ max z one = (y : EReal) := by
  obtain ⟨r, _, rfl⟩ := hz
  refine ⟨max r 1, lt_of_lt_of_le zero_lt_one (le_max_right r 1), ?_⟩
  rw [hone, ← EReal.coe_one]
  exact (EReal.coe_strictMono.monotone.map_max).symm

/-- Multiplication by a nonnegative real distributes over a finite sum of extended reals. -/
theorem sum_mul_real {ι : Type} (s : Finset ι) (f : ι → EReal) {c : EReal} (hc : 0 ≤ c) (hct : c ≠ ⊤) :
    ∑ k ∈ s, f k * c = (∑ k ∈ s, f k) * c := by
  classical
  induction s using Finset.induction_on with
  | empty => simp
  | insert j s hj ih =>
    rw [Finset.sum_insert hj, Finset.sum_insert hj, ih, EReal.right_distrib_of_nonneg_of_ne_top hc hct]

/-- THE MEAN COMMUTES WITH THE LINEAR MAP: dividing a row by a positive real before contracting it with a column is
    multiplying the contraction by the reciprocal afterwards. `one` is any spelling of the real one. -/
theorem sum_div_mul {ι : Type} [Fintype ι] (a w : ι → EReal) {one : EReal} (hone : one = 1) {y : ℝ} (hy : 0 < y) :
    ∑ k, Ideal.div (a k) (y : EReal) * w k = (∑ k, a k * w k) * Ideal.div one (y : EReal) := by
  have hy0 : y ≠ 0 := ne_of_gt hy
  have hc : (0 : EReal) ≤ ((1 / y : ℝ) : EReal) := by exact_mod_cast (one_div_pos.mpr hy).le
  rw [hone, Ideal.div_coe hy0 1, one_mul, ← sum_mul_real Finset.univ _ hc (EReal.coe_ne_top _)]
  refine Finset.sum_congr rfl fun k _ => ?_
  rw [Ideal.div_coe hy0, mul_right_comm]

end LibMeanAlgebra

end
-- ==== Proof.SageReference.lean ====
/-
  The reference program's result is the layer.

  The reference counts each node's in-degree by scattering ones, clamps it below by one, gathers the source rows of
  the edges and scatter-adds them onto their destination rows (the neighbour sums `A`), divides every row of `A` by
  its clamped degree, and returns `max (x · ws + (A / dmax) · wn + b, 0)`.

  Read at node `v` and feature `q`: the two products are plain sums over the 128 contracted positions; the clamped
  degree is a positive real (a count of edges, or one), so dividing row `v` of `A` by it before the contraction is
  multiplying the contraction by its reciprocal afterwards — the form the layer is stated in.
-/
import proofs.«170591_j7181185319698_2_alg».proof.Proof.Gen.ReferenceIdeal.Read
import proofs.«170591_j7181185319698_2_alg».proof.Proof.LibMeanAlgebra
import proofs.«170591_j7181185319698_2_alg».proof.Proof.SageSpec

noncomputable section

open scoped BigOperators

namespace Cert.Sage.Ref

open Cert.ReferenceIdeal Cert.ReferenceIdeal.Gen Cert.ReferenceIdeal.Read Idealize.ShloMosaic Idealize.ShloMosaic.ValueIdx
open LibMeanAlgebra

/-- The reference's in-degree array is the accumulating scatter of ones into zeros, as an exact sum. -/
theorem deg_eq (x5 : IVec S1600000 32) :
    val_main_v3 (F := Ideal) x5 = Ideal.hostScatterAdd scatter_S100000_S1600000x1_S1600000_n_0_0_1 (val_main_v1 (F := Ideal))
      (val_main_v2 (F := Ideal) x5) (val_main_v0 (F := Ideal)) := rfl

/-- A node's clamped in-degree is a positive real: the scatter adds a one into a zero for every edge that lands on
    the node, and the maximum with one is taken. -/
theorem dmax_pos (x5 : IVec S1600000 32) (v : Fin 100000) :
    ∃ y : ℝ, 0 < y ∧ val_main_v15 (F := Ideal) x5 (ix1 v) = (y : EReal) := by
  rw [val_main_v15_apply, Ideal.maximumf_def]
  refine max_one_pos ?_ ?_
  · rw [val_main_v14_apply, val_main_cst_3_apply, Ideal.ofBits_def]; exact ofBits_one
  · rw [deg_eq]
    exact scatter_ones_real scatter_S100000_S1600000x1_S1600000_n_0_0_1 (val_main_v1 (F := Ideal)) (val_main_v2 (F := Ideal) x5)
      (val_main_v0 (F := Ideal)) (ix1 v)
      (by rw [val_main_v1_apply, val_main_cst_0_apply, Ideal.ofBits_def]; exact Ideal.ofBits_zero_f32)
      (fun j => by rw [val_main_v0_apply, val_main_cst_apply, Ideal.ofBits_def]; exact ofBits_one)

/-- The reference's result array is the layer of the argument arrays, of the neighbour sums the reference computes and
    of its clamped degrees. -/
theorem result_eq (x0 : FVec Ideal S100000x128 .f32) (x1 x2 : FVec Ideal S128x128 .f32) (x3 : FVec Ideal S128 .f32)
    (x4 x5 : IVec S1600000 32) :
    val_main_v25 (F := Ideal) x0 x1 x2 x3 x4 x5
      = layer x0 x1 x2 x3 (val_main_v13 (F := Ideal) x0 x4 x5) (val_main_v15 (F := Ideal) x5) := by
  funext i
  obtain ⟨v, q, rfl⟩ : ∃ (v : Fin 100000) (q : Fin 128), i = ix2 v q := ⟨i 0, i 1, eq_ix2 i⟩
  obtain ⟨y, hy, ey⟩ := dmax_pos x5 v
  have hl19 : ∀ k : Fin 128, lidx_main_v19 (ix2 v q) k = ix2 v k := fun k =>
    funext fun a => Fin.ext (by match a with | ⟨0, _⟩ => rfl | ⟨1, _⟩ => rfl)
  have hr19 : ∀ k : Fin 128, ridx_main_v19 (ix2 v q) k = ix2 k q := fun k =>
    funext fun a => Fin.ext (by match a with | ⟨0, _⟩ => rfl | ⟨1, _⟩ => rfl)
  have hl20 : ∀ k : Fin 128, lidx_main_v20 (ix2 v q) k = ix2 v k := fun k =>
    funext fun a => Fin.ext (by match a with | ⟨0, _⟩ => rfl | ⟨1, _⟩ => rfl)
  have hr20 : ∀ k : Fin 128, ridx_main_v20 (ix2 v q) k = ix2 k q := fun k =>
    funext fun a => Fin.ext (by match a with | ⟨0, _⟩ => rfl | ⟨1, _⟩ => rfl)
  have hd : ∀ k : Fin 128, idx_main_v16 (idx_main_v17 (ix2 v k)) = ix1 v := fun k =>
    funext fun a => Fin.ext (by match a with | ⟨0, _⟩ => rfl)
  have hb : idx_main_v22 (idx_main_v23 (ix2 v q)) = ix1 q :=
    funext fun a => Fin.ext (by match a with | ⟨0, _⟩ => rfl)
  rw [layer_apply, val_main_v25_apply, val_main_v24_apply, val_main_v21_apply, val_main_v19_apply, val_main_v20_apply,
    val_main_v23_apply, val_main_v22_apply, val_main_call0_v0_apply, val_main_call0_cst_apply, hb, ey,
    Ideal.maximumf_def, Ideal.addf_def, Ideal.addf_def, Ideal.ofBits_def]
  refine congrArg₂ max (congrArg₂ (· + ·) (congrArg₂ (· + ·) ?_ ?_) rfl) rfl
  · exact Finset.sum_congr rfl fun k _ => by rw [hl19 k, hr19 k]
  · refine (Finset.sum_congr rfl fun k _ => ?_).trans
      (sum_div_mul (fun k : Fin 128 => val_main_v13 (F := Ideal) x0 x4 x5 (ix2 v k)) (fun k : Fin 128 => x2 (ix2 k q)) ofBits_one hy)
    rw [hl20 k, hr20 k, val_main_v18_apply, val_main_v17_apply, val_main_v16_apply, hd k, ey, Ideal.hostDivf_def]

end Cert.Sage.Ref

end
-- ==== Proof.lean ====
/-
  A mean-aggregating graph layer: `max (x · ws + mean_neigh(x) · wn + b, 0)` over 100000 nodes and 1.6 million edges,
  where `mean_neigh(x)[v]` is the sum `A[v]` of the feature rows of the sources of the edges into `v`, divided by
  `dmax[v]` — the in-degree of `v`, or one where it is zero.

  The two programs compute the neighbour sums `A` and the clamped degrees `dmax` by the same host operations (the
  kernel's program passes the features through a narrower float format and back before the gather, the identity at
  the extended reals). They differ in where the mean is taken: the reference divides every row of `A` by `dmax` and
  then multiplies by `wn`; the kernel multiplies `A` by `wn` on the matrix unit, block of 5000 rows by block, and
  multiplies row `v` of the product by `1 / dmax[v]`. Since `dmax[v]` is a positive real,

      ∑ₖ (A[v,k] / dmax[v]) · wn[k,q]  =  (∑ₖ A[v,k] · wn[k,q]) · (1 / dmax[v])

  on the extended reals, whatever `A` and `wn` hold. Both results are therefore one function of the argument arrays,
  `Cert.Sage.layer`: Proof/SageKernel.lean reads it off the kernel's 20 written-back blocks, Proof/SageReference.lean
  off the reference's operations, over Proof/LibMeanAlgebra.lean's algebra. The three frames are the generated runs; the
  idealization rewrote nothing, so there is nothing to preserve.
-/
import proofs.«170591_j7181185319698_2_alg».proof.Defs
import proofs.«170591_j7181185319698_2_alg».proof.Proof.Gen.Kernel
import proofs.«170591_j7181185319698_2_alg».proof.Proof.Gen.Kernel.Frame
import proofs.«170591_j7181185319698_2_alg».proof.Proof.Gen.KernelIdeal
import proofs.«170591_j7181185319698_2_alg».proof.Proof.Gen.KernelIdeal.Frame
import proofs.«170591_j7181185319698_2_alg».proof.Proof.Gen.KernelIdeal.Value
import proofs.«170591_j7181185319698_2_alg».proof.Proof.Gen.ReferenceIdeal
import proofs.«170591_j7181185319698_2_alg».proof.Proof.Gen.ReferenceIdeal.Run
import proofs.«170591_j7181185319698_2_alg».proof.Proof.Gen.ReferenceIdeal.Read
import proofs.«170591_j7181185319698_2_alg».proof.Proof.Gen.Pre_finite_inputs
import proofs.«170591_j7181185319698_2_alg».proof.Proof.SageKernel
import proofs.«170591_j7181185319698_2_alg».proof.Proof.SageReference
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two programs compute the neighbour sums by the same gather and scatter-add of the same arrays. -/
theorem agg_eq (x : FVec Ideal Cert.KernelIdeal.S100000x128 .f32) (src dst : IVec Cert.KernelIdeal.S1600000 32) :
    Cert.Sage.Kernel.agg x src dst = Cert.ReferenceIdeal.Read.val_main_v13 (F := Ideal) x src dst := rfl

/-- The two programs compute the clamped in-degrees by the same scatter-add and maximum. -/
theorem dmax_eq (dst : IVec Cert.KernelIdeal.S1600000 32) :
    Cert.Sage.Kernel.dmax dst = Cert.ReferenceIdeal.Read.val_main_v15 (F := Ideal) dst := rfl

/-- Both programs' result arrays are the layer of the argument arrays. -/
theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v25_eq, Cert.Sage.Ref.result_eq, a0, a1, a2, a3, a4, a5, ← agg_eq, ← dmax_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
